-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S50000x1 : Shape := ⟨2, ![50000, 1]⟩
abbrev S5000x1 : Shape := ⟨2, ![5000, 1]⟩
abbrev S1x1 : Shape := ⟨2, ![1, 1]⟩

abbrev nBuf : Space → Nat
  | .hbm => 110
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S50000x1, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x1, .f32⟩
  | .hbm, ⟨101, _⟩ => ⟨S850000x1, .f32⟩
  | .hbm, ⟨102, _⟩ => ⟨S850000x1, .f32⟩
  | .hbm, ⟨103, _⟩ => ⟨S_, .f32⟩
  | .hbm, ⟨104, _⟩ => ⟨S50000x1, .f32⟩
  | .hbm, ⟨105, _⟩ => ⟨S850000x1, .i32⟩
  | .hbm, ⟨106, _⟩ => ⟨S50000x1, .f32⟩
  | .hbm, ⟨107, _⟩ => ⟨S1x1, .f32⟩
  | .hbm, ⟨108, _⟩ => ⟨S50000x1, .f32⟩
  | .hbm, ⟨109, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x1, .f32⟩
  | .local _ .vmem, ⟨13, _⟩ => ⟨S5000x1, .f32⟩
  | .local _ .vmem, ⟨14, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S5000x1_S5000x1_0_0 : ∀ a, (![0, 0] : Fin 2 → Nat) a + S5000x1.size a ≤ S5000x1.size a
  h_S5000x1 : 0 < S5000x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .i1⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000x64, .f32⟩
  | .hbm, ⟨88, _⟩ => ⟨S850000x1, .f32⟩
  | .hbm, ⟨89, _⟩ => ⟨S850000x64, .f32⟩
  | .hbm, ⟨90, _⟩ => ⟨S850000x64, .f32⟩
  | .hbm, ⟨91, _⟩ => ⟨S_, .f32⟩
  | .hbm, ⟨92, _⟩ => ⟨S50000x64, .f32⟩
  | .hbm, ⟨93, _⟩ => ⟨S850000x1, .i32⟩
  | .hbm, ⟨94, _⟩ => ⟨S50000x64, .f32⟩
  | .hbm, ⟨95, _⟩ => ⟨S1x64, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S50000x64, .f32⟩
  | .hbm, ⟨100, _⟩ => ⟨S50000x64, .i1⟩
  | .hbm, ⟨101, _⟩ => ⟨S_, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S50000x1, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x1, .f32⟩
  | .hbm, ⟨115, _⟩ => ⟨S850000x1, .f32⟩
  | .hbm, ⟨116, _⟩ => ⟨S850000x1, .f32⟩
  | .hbm, ⟨117, _⟩ => ⟨S_, .f32⟩
  | .hbm, ⟨118, _⟩ => ⟨S50000x1, .f32⟩
  | .hbm, ⟨119, _⟩ => ⟨S850000x1, .i32⟩
  | .hbm, ⟨120, _⟩ => ⟨S50000x1, .f32⟩
  | .hbm, ⟨121, _⟩ => ⟨S1x1, .f32⟩
  | .hbm, ⟨122, _⟩ => ⟨S50000x1, .f32⟩
  | .hbm, ⟨123, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.KernelRun.lean ====
/-
  The kernel program's run, with its result buffer named.

  The program is three pipelined regions among stretches of host operations. Run as a chain of segments — each host
  stretch from the buffer contents the previous segment left, each region from its entry contents to its arrays'
  final contents — every weakly fair execution terminates without a fault, and at the end every buffer that is not
  scoped to a region holds the last boundary's contents: the fold of all stretches and regions over the launch
  memory. Read at the result buffer that gives the program's result as that fold; read at an argument it gives the
  argument as launched.
-/
import proofs.«114519_j39926015983752_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates, nothing faulting, with the result buffer at the last
    boundary's contents and the arguments as launched. -/
theorem run_fold : θ_run defs (onTc (τ := τ) (main (F := F))) ⟨m, fun _ => 0, ρ⟩ (fun r => ∀ c : Dev nD,
      r.2.mem ((c.tc : Thread nD τ).loc main_v81) = W9 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v81 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.Gcn.KernelRun

end
-- ==== Proof.Layers.lean ====
/-
  The layers of the graph network as functions of whole arrays.

  A graph-convolution layer first multiplies the node features by a weight matrix (a dense product over the feature
  axis) and then, for every edge, takes the product's row at the edge's source node, scales it by the edge's
  normalization and adds it into the row of the edge's target node; a bias row is added to every node at the end.
  The edge list is the given one extended by one self-loop per node; the normalization of an edge is the product of
  the inverse square roots of the two endpoint degrees (a degree of zero gives the factor zero). Between two layers
  the features go through the leaky rectifier z ↦ z if z ≥ 0, else 0.01 · z.

  Everything except the dense product and the rectifier is spelt here exactly as the two printed programs spell it
  (the same host operations in the same order), once, so that both programs' results can be stated with one term and
  the gathers and scatter-adds never have to be opened: only the dense product is read at an index.
-/
import proofs.«114519_j39926015983752_1_alg».proof.KernelIdeal
import Idealize.ShloMosaic.Lib.ValueIdx
import Idealize.ShloMosaic.PureOps.Ideal.Laws

noncomputable section

namespace Cert.Gcn

open Cert.KernelIdeal Idealize.ShloMosaic Idealize.ShloMosaic.ValueIdx
open scoped BigOperators

variable [Cert.KernelIdeal.Facts]
open Cert.KernelIdeal.Facts₀ Cert.KernelIdeal.Facts

section Host

variable {F : FTy → Type} [FloatOps F]

/-- The sources of all edges: row 0 of the edge list, then every node once (its self-loop). -/
def srcIx (ei : (⟨S2x800000, .i32⟩ : BufTy).Contents (Elt F)) : (⟨S850000, .i32⟩ : BufTy).Contents (Elt F) :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0

/-- The targets of all edges: row 1 of the edge list, then every node once. -/
def dstIx (ei : (⟨S2x800000, .i32⟩ : BufTy).Contents (Elt F)) : (⟨S850000, .i32⟩ : BufTy).Contents (Elt F) :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0

/-- A negative node number counts from the end: 50000 is added to it. -/
def wrapIx (v : (⟨S850000, .i32⟩ : BufTy).Contents (Elt F)) : (⟨S850000, .i32⟩ : BufTy).Contents (Elt F) :=
  select (cmpi .slt v (broadcastInDim S850000 ![] bcast_S_S850000 (constantI S_ 32 0#32)))
    (addi v (broadcastInDim S850000 ![] bcast_S_S850000 (constantI S_ 32 50000#32))) v

/-- A per-edge vector as a one-column matrix. -/
def col {e : EltTy} (v : (⟨S850000, e⟩ : BufTy).Contents (Elt F)) : (⟨S850000x1, e⟩ : BufTy).Contents (Elt F) :=
  broadcastInDim S850000x1 ![0] bcast_S850000_S850000x1_0 v

/-- Every node's factor: the inverse square root of its in-degree (counted over all edges), zero for degree zero. -/
def nodeFactor (d : (⟨S850000, .i32⟩ : BufTy).Contents (Elt F)) : (⟨S50000, .f32⟩ : BufTy).Contents (Elt F) :=
  select
    (cmpf .ogt
      (Host.scatterAdd scatter_S50000_S850000x1_S850000_n_0_0_1 (broadcastInDim S50000 ![] bcast_S_S50000 (constant (F := F) S_ .f32 0x00000000#32)) (col d)
        (broadcastInDim S850000 ![] bcast_S_S850000 (constant (F := F) S_ .f32 0x3F800000#32)))
      (broadcastInDim S50000 ![] bcast_S_S50000 (constant (F := F) S_ .f32 0x00000000#32)))
    (Host.rsqrt (maximumf
      (Host.scatterAdd scatter_S50000_S850000x1_S850000_n_0_0_1 (broadcastInDim S50000 ![] bcast_S_S50000 (constant (F := F) S_ .f32 0x00000000#32)) (col d)
        (broadcastInDim S850000 ![] bcast_S_S850000 (constant (F := F) S_ .f32 0x3F800000#32)))
      (broadcastInDim S50000 ![] bcast_S_S50000 (constant (F := F) S_ .f32 0x3F800000#32))))
    (broadcastInDim S50000 ![] bcast_S_S50000 (id (constant (F := F) S_ .f32 0x00000000#32)))

/-- Every edge's normalization: the product of its two endpoints' factors. -/
def edgeNorm (s d : (⟨S850000, .i32⟩ : BufTy).Contents (Elt F)) : (⟨S850000, .f32⟩ : BufTy).Contents (Elt F) :=
  mulf (Host.gather gather_S50000_S850000x1_S850000_n_0_n_n_0_1_1 (nodeFactor d) (col (wrapIx s)))
    (Host.gather gather_S50000_S850000x1_S850000_n_0_n_n_0_1_1 (nodeFactor d) (col (wrapIx d)))

/-- Message passing over 64 features: gather the rows at the sources, scale each by its edge's normalization, add
    them up at the targets, add the bias row. -/
def spread64 (s d : (⟨S850000, .i32⟩ : BufTy).Contents (Elt F)) (n : (⟨S850000, .f32⟩ : BufTy).Contents (Elt F))
    (b : (⟨S64, .f32⟩ : BufTy).Contents (Elt F)) (h : (⟨S50000x64, .f32⟩ : BufTy).Contents (Elt F)) :
    (⟨S50000x64, .f32⟩ : BufTy).Contents (Elt F) :=
  addf
    (Host.scatterAdd scatter_S50000x64_S850000x1_S850000x64_1_0_0_1
      (broadcastInDim S50000x64 ![] bcast_S_S50000x64 (constant (F := F) S_ .f32 0x00000000#32)) (col d)
      (mulf (Host.gather gather_S50000x64_S850000x1_S850000x64_1_0_n_n_0_1_164 h (col (wrapIx s)))
        (broadcastInDim S850000x64 ![0, 1] bcast_S850000x1_S850000x64_0_1 (col n))))
    (broadcastInDim S50000x64 ![0, 1] bcast_S1x64_S50000x64_0_1 (broadcastInDim S1x64 ![1] bcast_S64_S1x64_1 b))

/-- Message passing over the one output feature. -/
def spread1 (s d : (⟨S850000, .i32⟩ : BufTy).Contents (Elt F)) (n : (⟨S850000, .f32⟩ : BufTy).Contents (Elt F))
    (b : (⟨S1, .f32⟩ : BufTy).Contents (Elt F)) (h : (⟨S50000x1, .f32⟩ : BufTy).Contents (Elt F)) :
    (⟨S50000x1, .f32⟩ : BufTy).Contents (Elt F) :=
  addf
    (Host.scatterAdd scatter_S50000x1_S850000x1_S850000x1_1_0_0_1
      (broadcastInDim S50000x1 ![] bcast_S_S50000x1 (constant (F := F) S_ .f32 0x00000000#32)) (col d)
      (mulf (Host.gather gather_S50000x1_S850000x1_S850000x1_1_0_n_n_0_1_11 h (col (wrapIx s))) (col n)))
    (broadcastInDim S50000x1 ![0, 1] bcast_S1x1_S50000x1_0_1 (broadcastInDim S1x1 ![1] bcast_S1_S1x1_1 b))

/-- The leaky rectifier as the host spells it on a whole [50000, 64] array: where z ≥ 0 take z, elsewhere 0.01 · z. -/
def hostLeaky (z : (⟨S50000x64, .f32⟩ : BufTy).Contents (Elt F)) : (⟨S50000x64, .f32⟩ : BufTy).Contents (Elt F) :=
  select (cmpf .oge z (broadcastInDim S50000x64 ![] bcast_S_S50000x64 (constant (F := F) S_ .f32 0x00000000#32))) z
    (mulf (broadcastInDim S50000x64 ![] bcast_S_S50000x64 (constant (F := F) S_ .f32 0x3C23D70A#32)) z)

end Host

/-! ## The dense product and the rectifier, at the exact values -/

/-- The leaky rectifier, entry by entry: z where z ≥ 0, the literal 0.01 (as printed) times z elsewhere. -/
def leaky {s : Shape} (z : FVec Ideal s .f32) : FVec Ideal s .f32 := fun i =>
  Scalar.select (FloatOps.cmpf .oge (z i) (Ideal.ofBits .f32 0x00000000#32)) (z i) (Ideal.ofBits .f32 0x3C23D70A#32 * z i)

/-- The rectifier reads one entry: equal entries give equal results. -/
theorem leaky_congr {s t : Shape} (z : FVec Ideal s .f32) (z' : FVec Ideal t .f32) (i : s.Idx) (j : t.Idx) (h : z i = z' j) :
    leaky z i = leaky z' j := by
  unfold leaky
  rw [h]

/-- The dense product of an [a, c] array with a [c, b] array: entry (p, q) is the sum over k of x (p, k) · w (k, q). -/
def dense {a c b : Nat} (x : FVec Ideal ⟨2, ![a, c]⟩ .f32) (w : FVec Ideal ⟨2, ![c, b]⟩ .f32) : FVec Ideal ⟨2, ![a, b]⟩ .f32 :=
  fun i => ∑ k : Fin c, x (ix2 (i 0) k) * w (ix2 k (i 1))

theorem dense_apply {a c b : Nat} (x : FVec Ideal ⟨2, ![a, c]⟩ .f32) (w : FVec Ideal ⟨2, ![c, b]⟩ .f32) (p : Fin a) (q : Fin b) :
    dense x w (ix2 p q) = ∑ k : Fin c, x (ix2 p k) * w (ix2 k q) := rfl

/-- The whole network: three layers, the rectifier between them. -/
def net (x : FVec Ideal S50000x128 .f32) (ei : (⟨S2x800000, .i32⟩ : BufTy).Contents (Elt Ideal))
    (w1 : FVec Ideal S128x64 .f32) (b1 : FVec Ideal S64 .f32) (w2 : FVec Ideal S64x64 .f32) (b2 : FVec Ideal S64 .f32)
    (w3 : FVec Ideal S64x1 .f32) (b3 : FVec Ideal S1 .f32) : FVec Ideal S50000x1 .f32 :=
  spread1 (srcIx ei) (dstIx ei) (edgeNorm (srcIx ei) (dstIx ei)) b3
    (dense (leaky (spread64 (srcIx ei) (dstIx ei) (edgeNorm (srcIx ei) (dstIx ei)) b2
      (dense (leaky (spread64 (srcIx ei) (dstIx ei) (edgeNorm (srcIx ei) (dstIx ei)) b1 (dense x w1))) w2))) w3)

end Cert.Gcn

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.KernelHost.lean ====
/-
  The host operations of the kernel's program between its three dense products, read as the layers' functions.

  The program's host operations come in stretches separated by the three products. Each stretch, run from ANY buffer
  contents, leaves in the buffer the next product reads the message-passing function of what the buffers held: the
  stretch before the first product builds the edge lists and the normalization from the edge input; the stretch after
  a product spreads that product's rows along the edges and adds the bias. Every stretch leaves alone the buffers it
  does not write: the edge lists, the normalization and the arguments are carried through.
-/
import proofs.«114519_j39926015983752_1_alg».proof.Proof.Gen.KernelIdeal.Launch
import proofs.«114519_j39926015983752_1_alg».proof.Proof.Layers
import Idealize.ShloMosaic.Lib.StableHlo.Run
import proofs.«114519_j39926015983752_1_alg».proof.Proof.LibAfterAppend

noncomputable section

namespace Cert.Gcn.KernelHost

open Cert.KernelIdeal Cert.KernelIdeal.Gen Idealize.ShloMosaic Idealize.ShloMosaic.TcCoe Idealize.ShloMosaic.StableHlo Cert.Gcn

variable {F : FTy → Type} [FloatOps F]

/-- The stretch before the first product, as one list. -/
abbrev front : List (HloOp τ sig (Elt F)) := hostOps0 ++ hostOps0_1 ++ hostOps0_2

theorem after_front (V : Valuation τ sig (Elt F)) :
    after hostOps0_2 (after hostOps0_1 (after hostOps0 V)) = after front V := by
  unfold front; rw [Cert.Lib.AfterAppend.after_append, Cert.Lib.AfterAppend.after_append]

/-- The sources of all edges, from the edge input. -/
theorem front_src (V : Valuation τ sig (Elt F)) :
    after (front (F := F)) V (Proc.devRef .tc main_v3) = srcIx (V (Proc.devRef .tc main_arg1)) := by
  simp only [front, hostOps0, hostOps0_1, hostOps0_2, List.cons_append, List.nil_append, List.append_nil]
  after_results
  rfl

/-- The targets of all edges. -/
theorem front_dst (V : Valuation τ sig (Elt F)) :
    after (front (F := F)) V (Proc.devRef .tc main_v6) = dstIx (V (Proc.devRef .tc main_arg1)) := by
  simp only [front, hostOps0, hostOps0_1, hostOps0_2, List.cons_append, List.nil_append, List.append_nil]
  after_results
  rfl

set_option maxHeartbeats 4000000 in
/-- The normalization of all edges. -/
theorem front_norm (V : Valuation τ sig (Elt F)) :
    after (front (F := F)) V (Proc.devRef .tc main_v31) = edgeNorm (srcIx (V (Proc.devRef .tc main_arg1))) (dstIx (V (Proc.devRef .tc main_arg1))) := by
  simp only [front, hostOps0, hostOps0_1, hostOps0_2, List.cons_append, List.nil_append, List.append_nil]
  after_results_simp
  rfl

set_option maxHeartbeats 4000000 in
/-- The first stretch writes no argument. -/
theorem front_keeps (V : Valuation τ sig (Elt F)) :
    after (front (F := F)) V (Proc.devRef .tc main_arg0) = V (Proc.devRef .tc main_arg0)
    ∧ after (front (F := F)) V (Proc.devRef .tc main_arg2) = V (Proc.devRef .tc main_arg2)
    ∧ after (front (F := F)) V (Proc.devRef .tc main_arg3) = V (Proc.devRef .tc main_arg3)
    ∧ after (front (F := F)) V (Proc.devRef .tc main_arg4) = V (Proc.devRef .tc main_arg4)
    ∧ after (front (F := F)) V (Proc.devRef .tc main_arg5) = V (Proc.devRef .tc main_arg5)
    ∧ after (front (F := F)) V (Proc.devRef .tc main_arg6) = V (Proc.devRef .tc main_arg6)
    ∧ after (front (F := F)) V (Proc.devRef .tc main_arg7) = V (Proc.devRef .tc main_arg7) := by
  refine ⟨?_, ?_, ?_, ?_, ?_, ?_, ?_⟩ <;> (simp only [front, hostOps0, hostOps0_1, hostOps0_2, List.cons_append, List.nil_append, List.append_nil]; after_results_simp)

/-! ## The stretches after the products -/

set_option maxHeartbeats 4000000 in
/-- After the first product: its rows spread along the edges, plus the first bias. -/
theorem stretch1_out (V : Valuation τ sig (Elt F)) :
    after (hostOps1 (F := F)) V (Proc.devRef .tc main_v48)
      = spread64 (V (Proc.devRef .tc main_v3)) (V (Proc.devRef .tc main_v6)) (V (Proc.devRef .tc main_v31)) (V (Proc.devRef .tc main_arg3)) (V (Proc.devRef .tc main_v32)) := by
  simp only [hostOps1]
  after_results_simp
  rfl

set_option maxHeartbeats 4000000 in
/-- That stretch writes neither the edge lists, the normalization nor a later argument. -/
theorem stretch1_keeps (V : Valuation τ sig (Elt F)) :
    after (hostOps1 (F := F)) V (Proc.devRef .tc main_v3) = V (Proc.devRef .tc main_v3)
    ∧ after (hostOps1 (F := F)) V (Proc.devRef .tc main_v6) = V (Proc.devRef .tc main_v6)
    ∧ after (hostOps1 (F := F)) V (Proc.devRef .tc main_v31) = V (Proc.devRef .tc main_v31)
    ∧ after (hostOps1 (F := F)) V (Proc.devRef .tc main_arg4) = V (Proc.devRef .tc main_arg4)
    ∧ after (hostOps1 (F := F)) V (Proc.devRef .tc main_arg5) = V (Proc.devRef .tc main_arg5)
    ∧ after (hostOps1 (F := F)) V (Proc.devRef .tc main_arg6) = V (Proc.devRef .tc main_arg6)
    ∧ after (hostOps1 (F := F)) V (Proc.devRef .tc main_arg7) = V (Proc.devRef .tc main_arg7) := by
  refine ⟨?_, ?_, ?_, ?_, ?_, ?_, ?_⟩ <;> (simp only [hostOps1]; after_results_simp)

set_option maxHeartbeats 4000000 in
/-- After the second product: its rows spread along the edges, plus the second bias. -/
theorem stretch2_out (V : Valuation τ sig (Elt F)) :
    after (hostOps2 (F := F)) V (Proc.devRef .tc main_v65)
      = spread64 (V (Proc.devRef .tc main_v3)) (V (Proc.devRef .tc main_v6)) (V (Proc.devRef .tc main_v31)) (V (Proc.devRef .tc main_arg5)) (V (Proc.devRef .tc main_v49)) := by
  simp only [hostOps2]
  after_results_simp
  rfl

set_option maxHeartbeats 4000000 in
/-- That stretch writes neither the edge lists, the normalization nor a later argument. -/
theorem stretch2_keeps (V : Valuation τ sig (Elt F)) :
    after (hostOps2 (F := F)) V (Proc.devRef .tc main_v3) = V (Proc.devRef .tc main_v3)
    ∧ after (hostOps2 (F := F)) V (Proc.devRef .tc main_v6) = V (Proc.devRef .tc main_v6)
    ∧ after (hostOps2 (F := F)) V (Proc.devRef .tc main_v31) = V (Proc.devRef .tc main_v31)
    ∧ after (hostOps2 (F := F)) V (Proc.devRef .tc main_arg6) = V (Proc.devRef .tc main_arg6)
    ∧ after (hostOps2 (F := F)) V (Proc.devRef .tc main_arg7) = V (Proc.devRef .tc main_arg7) := by
  refine ⟨?_, ?_, ?_, ?_, ?_⟩ <;> (simp only [hostOps2]; after_results_simp)

set_option maxHeartbeats 4000000 in
/-- After the third product: its one column spread along the edges, plus the last bias — the program's result. -/
theorem stretch3_out (V : Valuation τ sig (Elt F)) :
    after (hostOps3 (F := F)) V (Proc.devRef .tc main_v81)
      = spread1 (V (Proc.devRef .tc main_v3)) (V (Proc.devRef .tc main_v6)) (V (Proc.devRef .tc main_v31)) (V (Proc.devRef .tc main_arg7)) (V (Proc.devRef .tc main_v66)) := by
  simp only [hostOps3]
  after_results_simp
  rfl

end Cert.Gcn.KernelHost

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.Block0.lean ====
/-
  The first dense product, from its row blocks to the whole array.

  The grid has ten points; point t works on rows 5000·t … 5000·t + 4999 of the node features and on the whole weight
  matrix, and writes back rows 5000·t … 5000·t + 4999 of the product. Entry (y, q) of what point t computes is the sum
  over k of feature (5000·t + y, k) times weight (k, q) — the same sum that defines entry (5000·t + y, q) of
  the dense product of the whole arrays (a change of float format is the identity at the exact values, and the
  product starts from the zero array). The ten row blocks tile the rows, so after the last point the whole output
  array is the dense product.
-/
import proofs.«114519_j39926015983752_1_alg».proof.Proof.Gen.KernelIdeal.Frame
import proofs.«114519_j39926015983752_1_alg».proof.Proof.Layers
import proofs.«114519_j39926015983752_1_alg».proof.Proof.LibPlainDot
import Idealize.ShloMosaic.Lib.Pipeline.Value

noncomputable section

namespace Cert.Gcn.Block0

open Cert.KernelIdeal Cert.KernelIdeal.Gen Cert.KernelIdeal.Facts₀ Cert.KernelIdeal.Facts
open Idealize.ShloMosaic Idealize.ShloMosaic.TcCoe Idealize.ShloMosaic.ValueIdx Idealize.SL.Sem Cert.Gcn
open Idealize.ShloMosaic.Pipeline (Dat)
open scoped BigOperators

theorem hz : (![0, 0] : Fin 2 → Nat) = fun _ => 0 := funext fun a => by fin_cases a <;> rfl

/-- What a point computes, at an entry: the sum over the contraction axis. -/
theorem pay_apply (x0 : Vec Ideal S5000x128 .f32) (x1 : Vec Ideal S128x64 .f32) (y : Fin 5000) (q : Fin 64) :
    k0_pay1 x0 x1 (ix2 y q) = ∑ k : Fin 128, x0 (ix2 y k) * x1 (ix2 k q) := by
  unfold k0_pay1
  exact Cert.Lib.PlainDot.matmul_zero_apply Facts₀.dot_S5000x128_S128x64_S5000x64_1_0_0_1_n_n_wf none _ _ y q

/-- A point's block of rows of the features gives the same rows of the whole product. -/
theorem pay_block (A : FVec Ideal S50000x128 .f32) (W : FVec Ideal S128x64 .f32) (x0 : Vec Ideal S5000x128 .f32) (x1 : Vec Ideal S128x64 .f32)
    (e : Fin 5000 → Fin 50000) (h0 : ∀ y k, x0 (ix2 y k) = A (ix2 (e y) k)) (h1 : ∀ k q, x1 (ix2 k q) = W (ix2 k q))
    (y : Fin 5000) (q : Fin 64) :
    k0_pay1 x0 x1 (ix2 y q) = dense A W (ix2 (e y) q) := by
  rw [pay_apply, dense_apply]
  refine Finset.sum_congr rfl fun k _ => ?_
  rw [h0, h1]

/-- The printed index maps over the ten points: the feature block and the output block are at the point's own row
    block, every other block index is zero. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What point t writes back is block t of the dense product of the arrays the region finds. -/
theorem flushed_eq (c : Dev nD) (t : Fin cfg0.N) :
    (dat0 (F := Ideal) V c).flushed 2 t
      = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  have hj0 : (j 0).val < 5000 := (j 0).isLt
  have hj1 : (j 1).val < 64 := (j 1).isLt
  have hjj : j = ix2 (⟨(j 0).val, hj0⟩ : Fin 5000) (⟨(j 1).val, hj1⟩ : Fin 64) :=
    funext fun a => Fin.ext (by match a with | ⟨0, _⟩ => rfl | ⟨1, _⟩ => rfl)
  refine (congrArg (k0_pay1 (iblk0 V c 0 t) (iblk0 V c 1 t)) hjj).trans
    ((pay_block (V c main_arg0) (V c main_arg2) (iblk0 V c 0 t) (iblk0 V c 1 t)
      (fun y => ⟨win0_2.index t (0 : Fin 2) * 5000 + y.val, by have := y.isLt; omega⟩) ?_ ?_ ⟨(j 0).val, hj0⟩ ⟨(j 1).val, hj1⟩).trans
      (congrArg (dense (V c main_arg0) (V c main_arg2)) ?_))
  · intro y k
    show V c main_arg0 (((cfg0.win 0).blk t).view.emb (ix2 y k)) = V c main_arg0 _
    refine congrArg _ (funext fun a => Fin.ext ?_)
    match a with
    | ⟨0, _⟩ => show win0_0.index t (0 : Fin 2) * 5000 + 1 * y.val = win0_2.index t (0 : Fin 2) * 5000 + y.val; omega
    | ⟨1, _⟩ => show win0_0.index t (1 : Fin 2) * 128 + 1 * k.val = k.val; omega
  · intro k q
    show V c main_arg2 (((cfg0.win 1).blk t).view.emb (ix2 k q)) = V c main_arg2 _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · refine funext fun a => Fin.ext ?_
    match a with
    | ⟨0, _⟩ => show win0_2.index t (0 : Fin 2) * 5000 + (j 0).val = win0_2.index t (0 : Fin 2) * 5000 + 1 * (j 0).val; omega
    | ⟨1, _⟩ => show (j 1).val = win0_2.index t (1 : Fin 2) * 64 + 1 * (j 1).val; omega

/-- An entry of the output array is in point t's block iff its row is in the point's row block (and its column
    anywhere). -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The ten row blocks cover the output array: row r is in the block of point r / 5000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output array is the dense product of the arrays the region found. -/
theorem final (c : Dev nD) :
    (dat0 (F := Ideal) V c).arrAt 2 cfg0.N = dense (V c main_arg0) (V c main_arg2) :=
  (dat0 V c).arrAt_eq_of_cover 2 _ (fun t _ => flushed_eq V c t) cover

end Cert.Gcn.Block0

end
-- ==== Proof.Block1.lean ====
/-
  The second dense product, from its row blocks to the whole array.

  The grid has ten points; point t works on rows 5000·t … 5000·t + 4999 of the node features and on the whole weight
  matrix, and writes back rows 5000·t … 5000·t + 4999 of the product. Entry (y, q) of what point t computes is the sum
  over k of the rectified feature (5000·t + y, k) times weight (k, q) — the same sum that defines entry (5000·t + y, q) of
  the dense product of the whole arrays (a change of float format is the identity at the exact values, and the
  product starts from the zero array). The ten row blocks tile the rows, so after the last point the whole output
  array is the dense product of the rectified features.
-/
import proofs.«114519_j39926015983752_1_alg».proof.Proof.Gen.KernelIdeal.Frame
import proofs.«114519_j39926015983752_1_alg».proof.Proof.Layers
import proofs.«114519_j39926015983752_1_alg».proof.Proof.LibPlainDot
import Idealize.ShloMosaic.Lib.Pipeline.Value

noncomputable section

namespace Cert.Gcn.Block1

open Cert.KernelIdeal Cert.KernelIdeal.Gen Cert.KernelIdeal.Facts₀ Cert.KernelIdeal.Facts
open Idealize.ShloMosaic Idealize.ShloMosaic.TcCoe Idealize.ShloMosaic.ValueIdx Idealize.SL.Sem Cert.Gcn
open Idealize.ShloMosaic.Pipeline (Dat)
open scoped BigOperators

theorem hz : (![0, 0] : Fin 2 → Nat) = fun _ => 0 := funext fun a => by fin_cases a <;> rfl

/-- What a point computes, at an entry: the sum over the contraction axis. -/
theorem pay_apply (x0 : Vec Ideal S5000x64 .f32) (x1 : Vec Ideal S64x64 .f32) (y : Fin 5000) (q : Fin 64) :
    k1_pay1 x0 x1 (ix2 y q) = ∑ k : Fin 64, leaky x0 (ix2 y k) * x1 (ix2 k q) := by
  unfold k1_pay1
  rw [shapeCast_self x0 _]
  exact Cert.Lib.PlainDot.matmul_zero_apply Facts₀.dot_S5000x64_S64x64_S5000x64_1_0_0_1_n_n_wf none _ _ y q

/-- A point's block of rows of the features gives the same rows of the whole product. -/
theorem pay_block (A : FVec Ideal S50000x64 .f32) (W : FVec Ideal S64x64 .f32) (x0 : Vec Ideal S5000x64 .f32) (x1 : Vec Ideal S64x64 .f32)
    (e : Fin 5000 → Fin 50000) (h0 : ∀ y k, x0 (ix2 y k) = A (ix2 (e y) k)) (h1 : ∀ k q, x1 (ix2 k q) = W (ix2 k q))
    (y : Fin 5000) (q : Fin 64) :
    k1_pay1 x0 x1 (ix2 y q) = dense (leaky A) W (ix2 (e y) q) := by
  rw [pay_apply, dense_apply]
  refine Finset.sum_congr rfl fun k _ => ?_
  rw [leaky_congr x0 A (ix2 y k) (ix2 (e y) k) (h0 y k), h1]

/-- The printed index maps over the ten points: the feature block and the output block are at the point's own row
    block, every other block index is zero. -/
theorem idx_facts : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

variable (V : (c : Dev nD) → (b : Ref sig .tc) → Buf (Elt Ideal) ((c : Thread nD τ).loc b))

/-- What point t writes back is block t of the dense product of the arrays the region finds. -/
theorem flushed_eq (c : Dev nD) (t : Fin cfg1.N) :
    (dat1 (F := Ideal) V c).flushed 2 t
      = ((cfg1.win 2).blk t).view.read (Elt Ideal) (dense (leaky (V c main_v48)) (V c main_arg4)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨e0, e1, e2, e3, e4, e5⟩ := idx_facts t
  funext j
  have hj0 : (j 0).val < 5000 := (j 0).isLt
  have hj1 : (j 1).val < 64 := (j 1).isLt
  have hjj : j = ix2 (⟨(j 0).val, hj0⟩ : Fin 5000) (⟨(j 1).val, hj1⟩ : Fin 64) :=
    funext fun a => Fin.ext (by match a with | ⟨0, _⟩ => rfl | ⟨1, _⟩ => rfl)
  refine (congrArg (k1_pay1 (iblk1 V c 0 t) (iblk1 V c 1 t)) hjj).trans
    ((pay_block (V c main_v48) (V c main_arg4) (iblk1 V c 0 t) (iblk1 V c 1 t)
      (fun y => ⟨win1_2.index t (0 : Fin 2) * 5000 + y.val, by have := y.isLt; omega⟩) ?_ ?_ ⟨(j 0).val, hj0⟩ ⟨(j 1).val, hj1⟩).trans
      (congrArg (dense (leaky (V c main_v48)) (V c main_arg4)) ?_))
  · intro y k
    show V c main_v48 (((cfg1.win 0).blk t).view.emb (ix2 y k)) = V c main_v48 _
    refine congrArg _ (funext fun a => Fin.ext ?_)
    match a with
    | ⟨0, _⟩ => show win1_0.index t (0 : Fin 2) * 5000 + 1 * y.val = win1_2.index t (0 : Fin 2) * 5000 + y.val; omega
    | ⟨1, _⟩ => show win1_0.index t (1 : Fin 2) * 64 + 1 * k.val = k.val; omega
  · intro k q
    show V c main_arg4 (((cfg1.win 1).blk t).view.emb (ix2 k q)) = V c main_arg4 _
    refine congrArg _ (funext fun a => Fin.ext ?_)
    match a with
    | ⟨0, _⟩ => show win1_1.index t (0 : Fin 2) * 64 + 1 * k.val = k.val; omega
    | ⟨1, _⟩ => show win1_1.index t (1 : Fin 2) * 64 + 1 * q.val = q.val; omega
  · refine funext fun a => Fin.ext ?_
    match a with
    | ⟨0, _⟩ => show win1_2.index t (0 : Fin 2) * 5000 + (j 0).val = win1_2.index t (0 : Fin 2) * 5000 + 1 * (j 0).val; omega
    | ⟨1, _⟩ => show (j 1).val = win1_2.index t (1 : Fin 2) * 64 + 1 * (j 1).val; omega

/-- An entry of the output array is in point t's block iff its row is in the point's row block (and its column
    anywhere). -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- The ten row blocks cover the output array: row r is in the block of point r / 5000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the region the output array is the dense product of the arrays the region found. -/
theorem final (c : Dev nD) :
    (dat1 (F := Ideal) V c).arrAt 2 cfg1.N = dense (leaky (V c main_v48)) (V c main_arg4) :=
  (dat1 V c).arrAt_eq_of_cover 2 _ (fun t _ => flushed_eq V c t) cover

end Cert.Gcn.Block1

end
-- ==== Proof.Block2.lean ====
/-
  The third dense product, from its row blocks to the whole array.

  The grid has ten points; point t works on rows 5000·t … 5000·t + 4999 of the node features and on the whole weight
  matrix, and writes back rows 5000·t … 5000·t + 4999 of the product. Entry (y, q) of what point t computes is the sum
  over k of the rectified feature (5000·t + y, k) times weight (k, q) — the same sum that defines entry (5000·t + y, q) of
  the dense product of the whole arrays (a change of float format is the identity at the exact values, and the
  product starts from the zero array). The ten row blocks tile the rows, so after the last point the whole output
  array is the dense product of the rectified features.
-/
import proofs.«114519_j39926015983752_1_alg».proof.Proof.Gen.KernelIdeal.Frame
import proofs.«114519_j39926015983752_1_alg».proof.Proof.Layers
import proofs.«114519_j39926015983752_1_alg».proof.Proof.LibPlainDot
import Idealize.ShloMosaic.Lib.Pipeline.Value

noncomputable section

namespace Cert.Gcn.Block2

open Cert.KernelIdeal Cert.KernelIdeal.Gen Cert.KernelIdeal.Facts₀ Cert.KernelIdeal.Facts
open Idealize.ShloMosaic Idealize.ShloMosaic.TcCoe Idealize.ShloMosaic.ValueIdx Idealize.SL.Sem Cert.Gcn
open Idealize.ShloMosaic.Pipeline (Dat)
open scoped BigOperators

theorem hz : (![0, 0] : Fin 2 → Nat) = fun _ => 0 := funext fun a => by fin_cases a <;> rfl

/-- What a point computes, at an entry: the sum over the contraction axis. -/
theorem pay_apply (x0 : Vec Ideal S5000x64 .f32) (x1 : Vec Ideal S64x1 .f32) (y : Fin 5000) (q : Fin 1) :
    k2_pay1 x0 x1 (ix2 y q) = ∑ k : Fin 64, leaky x0 (ix2 y k) * x1 (ix2 k q) := by
  unfold k2_pay1
  rw [shapeCast_self x0 _]
  exact Cert.Lib.PlainDot.matmul_zero_apply Facts₀.dot_S5000x64_S64x1_S5000x1_1_0_0_1_n_n_wf none _ _ y q

/-- A point's block of rows of the features gives the same rows of the whole product. -/
theorem pay_block (A : FVec Ideal S50000x64 .f32) (W : FVec Ideal S64x1 .f32) (x0 : Vec Ideal S5000x64 .f32) (x1 : Vec Ideal S64x1 .f32)
    (e : Fin 5000 → Fin 50000) (h0 : ∀ y k, x0 (ix2 y k) = A (ix2 (e y) k)) (h1 : ∀ k q, x1 (ix2 k q) = W (ix2 k q))
    (y : Fin 5000) (q : Fin 1) :
    k2_pay1 x0 x1 (ix2 y q) = dense (leaky A) W (ix2 (e y) q) := by
  rw [pay_apply, dense_apply]
  refine Finset.sum_congr rfl fun k _ => ?_
  rw [leaky_congr x0 A (ix2 y k) (ix2 (e y) k) (h0 y k), h1]

/-- The printed index maps over the ten points: the feature block and the output block are at the point's own row
    block, every other block index is zero. -/
theorem idx_facts : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- What point t writes back is block t of the dense product of the arrays the region finds. -/
theorem flushed_eq (c : Dev nD) (t : Fin cfg2.N) :
    (dat2 (F := Ideal) V c).flushed 2 t
      = ((cfg2.win 2).blk t).view.read (Elt Ideal) (dense (leaky (V c main_v65)) (V c main_arg6)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x1) hz]
  obtain ⟨e0, e1, e2, e3, e4, e5⟩ := idx_facts t
  funext j
  have hj0 : (j 0).val < 5000 := (j 0).isLt
  have hj1 : (j 1).val < 1 := (j 1).isLt
  have hjj : j = ix2 (⟨(j 0).val, hj0⟩ : Fin 5000) (⟨(j 1).val, hj1⟩ : Fin 1) :=
    funext fun a => Fin.ext (by match a with | ⟨0, _⟩ => rfl | ⟨1, _⟩ => rfl)
  refine (congrArg (k2_pay1 (iblk2 V c 0 t) (iblk2 V c 1 t)) hjj).trans
    ((pay_block (V c main_v65) (V c main_arg6) (iblk2 V c 0 t) (iblk2 V c 1 t)
      (fun y => ⟨win2_2.index t (0 : Fin 2) * 5000 + y.val, by have := y.isLt; omega⟩) ?_ ?_ ⟨(j 0).val, hj0⟩ ⟨(j 1).val, hj1⟩).trans
      (congrArg (dense (leaky (V c main_v65)) (V c main_arg6)) ?_))
  · intro y k
    show V c main_v65 (((cfg2.win 0).blk t).view.emb (ix2 y k)) = V c main_v65 _
    refine congrArg _ (funext fun a => Fin.ext ?_)
    match a with
    | ⟨0, _⟩ => show win2_0.index t (0 : Fin 2) * 5000 + 1 * y.val = win2_2.index t (0 : Fin 2) * 5000 + y.val; omega
    | ⟨1, _⟩ => show win2_0.index t (1 : Fin 2) * 64 + 1 * k.val = k.val; omega
  · intro k q
    show V c main_arg6 (((cfg2.win 1).blk t).view.emb (ix2 k q)) = V c main_arg6 _
    refine congrArg _ (funext fun a => Fin.ext ?_)
    match a with
    | ⟨0, _⟩ => show win2_1.index t (0 : Fin 2) * 64 + 1 * k.val = k.val; omega
    | ⟨1, _⟩ => show win2_1.index t (1 : Fin 2) * 1 + 1 * q.val = q.val; omega
  · refine funext fun a => Fin.ext ?_
    match a with
    | ⟨0, _⟩ => show win2_2.index t (0 : Fin 2) * 5000 + (j 0).val = win2_2.index t (0 : Fin 2) * 5000 + 1 * (j 0).val; omega
    | ⟨1, _⟩ => show (j 1).val = win2_2.index t (1 : Fin 2) * 1 + 1 * (j 1).val; omega

/-- An entry of the output array is in point t's block iff its row is in the point's row block (and its column
    anywhere). -/
theorem mem_blk (t : Fin cfg2.N) (i : S50000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v66).slice (win2_2.rect t)).set ↔ _
  rw [View.set_slice_whole, Rect.mem_set_unit]
  exact Iff.rfl

/-- The ten row blocks cover the output array: row r is in the block of point r / 5000. -/
theorem cover (i : S50000x1.Idx) : ∃ t : Fin cfg2.N, (cfg2.win 2).flush t = true ∧ i ∈ ((cfg2.win 2).blk t).view.set := by
  have hi0 : (i 0).val < 50000 := (i 0).isLt
  have hi1 : (i 1).val < 1 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 1 ≤ (i 1).val ∧ (i 1).val < win2_2.index t (1 : Fin 2) * 1 + 1; omega

/-- After the region the output array is the dense product of the arrays the region found. -/
theorem final (c : Dev nD) :
    (dat2 (F := Ideal) V c).arrAt 2 cfg2.N = dense (leaky (V c main_v65)) (V c main_arg6) :=
  (dat2 V c).arrAt_eq_of_cover 2 _ (fun t _ => flushed_eq V c t) cover

end Cert.Gcn.Block2

end
-- ==== Proof.KernelValue.lean ====
/-
  The kernel program's result buffer as the network function of the arguments.

  The buffer contents are followed from boundary to boundary. After the first stretch of host operations the edge
  lists and the normalization are functions of the edge input and every argument is as launched. A region replaces
  its output array by the dense product of its two input arrays (the first of them rectified, after the first
  layer) and leaves every other buffer alone; a stretch of host operations spreads the product along the edges, adds
  the bias, and leaves the edge lists, the normalization and the later arguments alone. Seven boundaries later the
  result buffer holds the three layers composed.
-/
import proofs.«114519_j39926015983752_1_alg».proof.Proof.Gen.KernelIdeal.Frame
import proofs.«114519_j39926015983752_1_alg».proof.Proof.Layers
import proofs.«114519_j39926015983752_1_alg».proof.Proof.KernelHost
import proofs.«114519_j39926015983752_1_alg».proof.Proof.Block0
import proofs.«114519_j39926015983752_1_alg».proof.Proof.Block1
import proofs.«114519_j39926015983752_1_alg».proof.Proof.Block2

noncomputable section

namespace Cert.Gcn.KernelValue

open Cert.KernelIdeal Cert.KernelIdeal.Gen
open Idealize.ShloMosaic Idealize.ShloMosaic.TcCoe Idealize.ShloMosaic.StableHlo Idealize.SL.Sem Cert.Gcn Cert.Gcn.KernelHost

variable (m : (ℓ : Loc nD τ sig) → Buf (Elt Ideal) ℓ) (ρ : Dev nD → PrngReg) (c : Dev nD)

/-- The contents when the first region is entered: the first stretch run from the launch memory. -/
theorem W3_eq : W3 m ρ c = after front (W0 m ρ c) := after_front (W0 m ρ c)

/-- Entering the first region: the edge lists, the normalization, the arguments. -/
theorem at3 :
    W3 m ρ c (Proc.devRef .tc main_v3) = srcIx (m ((c.tc : Thread nD τ).loc main_arg1))
    ∧ W3 m ρ c (Proc.devRef .tc main_v6) = dstIx (m ((c.tc : Thread nD τ).loc main_arg1))
    ∧ W3 m ρ c (Proc.devRef .tc main_v31) = edgeNorm (srcIx (m ((c.tc : Thread nD τ).loc main_arg1))) (dstIx (m ((c.tc : Thread nD τ).loc main_arg1)))
    ∧ W3 m ρ c (Proc.devRef .tc main_arg0) = m ((c.tc : Thread nD τ).loc main_arg0)
    ∧ W3 m ρ c (Proc.devRef .tc main_arg2) = m ((c.tc : Thread nD τ).loc main_arg2)
    ∧ W3 m ρ c (Proc.devRef .tc main_arg3) = m ((c.tc : Thread nD τ).loc main_arg3)
    ∧ W3 m ρ c (Proc.devRef .tc main_arg4) = m ((c.tc : Thread nD τ).loc main_arg4)
    ∧ W3 m ρ c (Proc.devRef .tc main_arg5) = m ((c.tc : Thread nD τ).loc main_arg5)
    ∧ W3 m ρ c (Proc.devRef .tc main_arg6) = m ((c.tc : Thread nD τ).loc main_arg6)
    ∧ W3 m ρ c (Proc.devRef .tc main_arg7) = m ((c.tc : Thread nD τ).loc main_arg7) := by
  obtain ⟨k0, k2, k3, k4, k5, k6, k7⟩ := front_keeps (W0 m ρ c)
  exact ⟨(congrFun (W3_eq m ρ c) _).trans (front_src (W0 m ρ c)),
    (congrFun (W3_eq m ρ c) _).trans (front_dst (W0 m ρ c)),
    (congrFun (W3_eq m ρ c) _).trans (front_norm (W0 m ρ c)),
    (congrFun (W3_eq m ρ c) _).trans k0, (congrFun (W3_eq m ρ c) _).trans k2, (congrFun (W3_eq m ρ c) _).trans k3,
    (congrFun (W3_eq m ρ c) _).trans k4, (congrFun (W3_eq m ρ c) _).trans k5, (congrFun (W3_eq m ρ c) _).trans k6,
    (congrFun (W3_eq m ρ c) _).trans k7⟩

/-- Leaving the first region: the first product in its output array, the rest as entered. -/
theorem at4 :
    W4 m ρ c (Proc.devRef .tc main_v3) = srcIx (m ((c.tc : Thread nD τ).loc main_arg1))
    ∧ W4 m ρ c (Proc.devRef .tc main_v6) = dstIx (m ((c.tc : Thread nD τ).loc main_arg1))
    ∧ W4 m ρ c (Proc.devRef .tc main_v31) = edgeNorm (srcIx (m ((c.tc : Thread nD τ).loc main_arg1))) (dstIx (m ((c.tc : Thread nD τ).loc main_arg1)))
    ∧ W4 m ρ c (Proc.devRef .tc main_v32) = dense (m ((c.tc : Thread nD τ).loc main_arg0)) (m ((c.tc : Thread nD τ).loc main_arg2))
    ∧ W4 m ρ c (Proc.devRef .tc main_arg3) = m ((c.tc : Thread nD τ).loc main_arg3)
    ∧ W4 m ρ c (Proc.devRef .tc main_arg4) = m ((c.tc : Thread nD τ).loc main_arg4)
    ∧ W4 m ρ c (Proc.devRef .tc main_arg5) = m ((c.tc : Thread nD τ).loc main_arg5)
    ∧ W4 m ρ c (Proc.devRef .tc main_arg6) = m ((c.tc : Thread nD τ).loc main_arg6)
    ∧ W4 m ρ c (Proc.devRef .tc main_arg7) = m ((c.tc : Thread nD τ).loc main_arg7) := by
  obtain ⟨h3, h6, h31, a0, a2, a3, a4, a5, a6, a7⟩ := at3 m ρ c
  exact ⟨(W4_of_ne m ρ c main_v3 (by decide)).trans h3, (W4_of_ne m ρ c main_v6 (by decide)).trans h6,
    (W4_of_ne m ρ c main_v31 (by decide)).trans h31,
    (W4_arr m ρ c 2).trans ((Block0.final (V3 m ρ) c).trans (congr (congrArg dense a0) a2)),
    (W4_of_ne m ρ c main_arg3 (by decide)).trans a3, (W4_of_ne m ρ c main_arg4 (by decide)).trans a4,
    (W4_of_ne m ρ c main_arg5 (by decide)).trans a5, (W4_of_ne m ρ c main_arg6 (by decide)).trans a6,
    (W4_of_ne m ρ c main_arg7 (by decide)).trans a7⟩

/-- Entering the second region: the first layer's output. -/
theorem at5 :
    W5 m ρ c (Proc.devRef .tc main_v3) = srcIx (m ((c.tc : Thread nD τ).loc main_arg1))
    ∧ W5 m ρ c (Proc.devRef .tc main_v6) = dstIx (m ((c.tc : Thread nD τ).loc main_arg1))
    ∧ W5 m ρ c (Proc.devRef .tc main_v31) = edgeNorm (srcIx (m ((c.tc : Thread nD τ).loc main_arg1))) (dstIx (m ((c.tc : Thread nD τ).loc main_arg1)))
    ∧ W5 m ρ c (Proc.devRef .tc main_v48) = spread64 (srcIx (m ((c.tc : Thread nD τ).loc main_arg1))) (dstIx (m ((c.tc : Thread nD τ).loc main_arg1))) (edgeNorm (srcIx (m ((c.tc : Thread nD τ).loc main_arg1))) (dstIx (m ((c.tc : Thread nD τ).loc main_arg1)))) (m ((c.tc : Thread nD τ).loc main_arg3)) (dense (m ((c.tc : Thread nD τ).loc main_arg0)) (m ((c.tc : Thread nD τ).loc main_arg2)))
    ∧ W5 m ρ c (Proc.devRef .tc main_arg4) = m ((c.tc : Thread nD τ).loc main_arg4)
    ∧ W5 m ρ c (Proc.devRef .tc main_arg5) = m ((c.tc : Thread nD τ).loc main_arg5)
    ∧ W5 m ρ c (Proc.devRef .tc main_arg6) = m ((c.tc : Thread nD τ).loc main_arg6)
    ∧ W5 m ρ c (Proc.devRef .tc main_arg7) = m ((c.tc : Thread nD τ).loc main_arg7) := by
  obtain ⟨h3, h6, h31, h32, a3, a4, a5, a6, a7⟩ := at4 m ρ c
  obtain ⟨k3, k6, k31, k4, k5, k6', k7⟩ := stretch1_keeps (W4 m ρ c)
  refine ⟨k3.trans h3, k6.trans h6, k31.trans h31, (stretch1_out (W4 m ρ c)).trans ?_, k4.trans a4, k5.trans a5, k6'.trans a6, k7.trans a7⟩
  rw [h3, h6, h31, a3, h32]

/-- Leaving the second region: the second product. -/
theorem at6 :
    W6 m ρ c (Proc.devRef .tc main_v3) = srcIx (m ((c.tc : Thread nD τ).loc main_arg1))
    ∧ W6 m ρ c (Proc.devRef .tc main_v6) = dstIx (m ((c.tc : Thread nD τ).loc main_arg1))
    ∧ W6 m ρ c (Proc.devRef .tc main_v31) = edgeNorm (srcIx (m ((c.tc : Thread nD τ).loc main_arg1))) (dstIx (m ((c.tc : Thread nD τ).loc main_arg1)))
    ∧ W6 m ρ c (Proc.devRef .tc main_v49) = dense (leaky (spread64 (srcIx (m ((c.tc : Thread nD τ).loc main_arg1))) (dstIx (m ((c.tc : Thread nD τ).loc main_arg1))) (edgeNorm (srcIx (m ((c.tc : Thread nD τ).loc main_arg1))) (dstIx (m ((c.tc : Thread nD τ).loc main_arg1)))) (m ((c.tc : Thread nD τ).loc main_arg3)) (dense (m ((c.tc : Thread nD τ).loc main_arg0)) (m ((c.tc : Thread nD τ).loc main_arg2))))) (m ((c.tc : Thread nD τ).loc main_arg4))
    ∧ W6 m ρ c (Proc.devRef .tc main_arg5) = m ((c.tc : Thread nD τ).loc main_arg5)
    ∧ W6 m ρ c (Proc.devRef .tc main_arg6) = m ((c.tc : Thread nD τ).loc main_arg6)
    ∧ W6 m ρ c (Proc.devRef .tc main_arg7) = m ((c.tc : Thread nD τ).loc main_arg7) := by
  obtain ⟨h3, h6, h31, h48, a4, a5, a6, a7⟩ := at5 m ρ c
  exact ⟨(W6_of_ne m ρ c main_v3 (by decide)).trans h3, (W6_of_ne m ρ c main_v6 (by decide)).trans h6,
    (W6_of_ne m ρ c main_v31 (by decide)).trans h31,
    (W6_arr m ρ c 2).trans ((Block1.final (V5 m ρ) c).trans (congr (congrArg dense (congrArg leaky h48)) a4)),
    (W6_of_ne m ρ c main_arg5 (by decide)).trans a5, (W6_of_ne m ρ c main_arg6 (by decide)).trans a6,
    (W6_of_ne m ρ c main_arg7 (by decide)).trans a7⟩

/-- Entering the third region: the second layer's output. -/
theorem at7 :
    W7 m ρ c (Proc.devRef .tc main_v3) = srcIx (m ((c.tc : Thread nD τ).loc main_arg1))
    ∧ W7 m ρ c (Proc.devRef .tc main_v6) = dstIx (m ((c.tc : Thread nD τ).loc main_arg1))
    ∧ W7 m ρ c (Proc.devRef .tc main_v31) = edgeNorm (srcIx (m ((c.tc : Thread nD τ).loc main_arg1))) (dstIx (m ((c.tc : Thread nD τ).loc main_arg1)))
    ∧ W7 m ρ c (Proc.devRef .tc main_v65) = spread64 (srcIx (m ((c.tc : Thread nD τ).loc main_arg1))) (dstIx (m ((c.tc : Thread nD τ).loc main_arg1))) (edgeNorm (srcIx (m ((c.tc : Thread nD τ).loc main_arg1))) (dstIx (m ((c.tc : Thread nD τ).loc main_arg1)))) (m ((c.tc : Thread nD τ).loc main_arg5)) (dense (leaky (spread64 (srcIx (m ((c.tc : Thread nD τ).loc main_arg1))) (dstIx (m ((c.tc : Thread nD τ).loc main_arg1))) (edgeNorm (srcIx (m ((c.tc : Thread nD τ).loc main_arg1))) (dstIx (m ((c.tc : Thread nD τ).loc main_arg1)))) (m ((c.tc : Thread nD τ).loc main_arg3)) (dense (m ((c.tc : Thread nD τ).loc main_arg0)) (m ((c.tc : Thread nD τ).loc main_arg2))))) (m ((c.tc : Thread nD τ).loc main_arg4)))
    ∧ W7 m ρ c (Proc.devRef .tc main_arg6) = m ((c.tc : Thread nD τ).loc main_arg6)
    ∧ W7 m ρ c (Proc.devRef .tc main_arg7) = m ((c.tc : Thread nD τ).loc main_arg7) := by
  obtain ⟨h3, h6, h31, h49, a5, a6, a7⟩ := at6 m ρ c
  obtain ⟨k3, k6, k31, k6', k7⟩ := stretch2_keeps (W6 m ρ c)
  refine ⟨k3.trans h3, k6.trans h6, k31.trans h31, (stretch2_out (W6 m ρ c)).trans ?_, k6'.trans a6, k7.trans a7⟩
  rw [h3, h6, h31, a5, h49]

/-- Leaving the third region: the third product. -/
theorem at8 :
    W8 m ρ c (Proc.devRef .tc main_v3) = srcIx (m ((c.tc : Thread nD τ).loc main_arg1))
    ∧ W8 m ρ c (Proc.devRef .tc main_v6) = dstIx (m ((c.tc : Thread nD τ).loc main_arg1))
    ∧ W8 m ρ c (Proc.devRef .tc main_v31) = edgeNorm (srcIx (m ((c.tc : Thread nD τ).loc main_arg1))) (dstIx (m ((c.tc : Thread nD τ).loc main_arg1)))
    ∧ W8 m ρ c (Proc.devRef .tc main_v66) = dense (leaky (spread64 (srcIx (m ((c.tc : Thread nD τ).loc main_arg1))) (dstIx (m ((c.tc : Thread nD τ).loc main_arg1))) (edgeNorm (srcIx (m ((c.tc : Thread nD τ).loc main_arg1))) (dstIx (m ((c.tc : Thread nD τ).loc main_arg1)))) (m ((c.tc : Thread nD τ).loc main_arg5)) (dense (leaky (spread64 (srcIx (m ((c.tc : Thread nD τ).loc main_arg1))) (dstIx (m ((c.tc : Thread nD τ).loc main_arg1))) (edgeNorm (srcIx (m ((c.tc : Thread nD τ).loc main_arg1))) (dstIx (m ((c.tc : Thread nD τ).loc main_arg1)))) (m ((c.tc : Thread nD τ).loc main_arg3)) (dense (m ((c.tc : Thread nD τ).loc main_arg0)) (m ((c.tc : Thread nD τ).loc main_arg2))))) (m ((c.tc : Thread nD τ).loc main_arg4))))) (m ((c.tc : Thread nD τ).loc main_arg6))
    ∧ W8 m ρ c (Proc.devRef .tc main_arg7) = m ((c.tc : Thread nD τ).loc main_arg7) := by
  obtain ⟨h3, h6, h31, h65, a6, a7⟩ := at7 m ρ c
  exact ⟨(W8_of_ne m ρ c main_v3 (by decide)).trans h3, (W8_of_ne m ρ c main_v6 (by decide)).trans h6,
    (W8_of_ne m ρ c main_v31 (by decide)).trans h31,
    (W8_arr m ρ c 2).trans ((Block2.final (V7 m ρ) c).trans (congr (congrArg dense (congrArg leaky h65)) a6)),
    (W8_of_ne m ρ c main_arg7 (by decide)).trans a7⟩

/-- The result buffer at the end: the network function of the arguments as launched. -/
theorem result :
    W9 m ρ c (Proc.devRef .tc main_v81) = net (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  obtain ⟨h3, h6, h31, h66, a7⟩ := at8 m ρ c
  refine (stretch3_out (W8 m ρ c)).trans ?_
  rw [h3, h6, h31, a7, h66]
  rfl

end Cert.Gcn.KernelValue

end
-- ==== Proof.DenseLaws.lean ====
/-
  The host's dense product and rectifier are the layers' functions, at the exact values.

  The host computes a dense product with its general contraction operation, whose dimension numbers here say: contract
  axis 1 of the left operand with axis 0 of the right one, no batch axis. Read at entry (p, q) that is the sum over k
  of left (p, k) · right (k, q). The host's rectifier compares with a broadcast zero and multiplies by a broadcast
  literal; read at an entry, a broadcast scalar is that scalar.
-/
import proofs.«114519_j39926015983752_1_alg».proof.Proof.Layers
import proofs.«114519_j39926015983752_1_alg».proof.Proof.LibPlainDot

noncomputable section

namespace Cert.Gcn

open Cert.KernelIdeal Idealize.ShloMosaic Idealize.ShloMosaic.ValueIdx
open scoped BigOperators

/-- The host's plain product of whole arrays is the dense product. -/
theorem dotGeneral_eq_dense {a c b : Nat} (wf : DotDims.WF ⟨2, ![a, c]⟩ ⟨2, ![c, b]⟩ ⟨2, ![a, b]⟩ [1] [0] [0] [1] [] [])
    (x : FVec Ideal ⟨2, ![a, c]⟩ .f32) (w : FVec Ideal ⟨2, ![c, b]⟩ .f32) :
    Host.dotGeneral (Cert.Lib.PlainDot.dims wf) none x w = dense x w := by
  funext i
  obtain ⟨p, q, rfl⟩ : ∃ (p : Fin a) (q : Fin b), i = ix2 p q := ⟨i 0, i 1, eq_ix2 i⟩
  exact Cert.Lib.PlainDot.dotGeneral_apply wf none x w p q

variable [Cert.KernelIdeal.Facts]

/-- The host's rectifier is the rectifier, entry by entry. -/
theorem hostLeaky_eq (z : FVec Ideal S50000x64 .f32) : hostLeaky (F := Ideal) z = leaky z := by
  funext i
  rfl

end Cert.Gcn

end
-- ==== Proof.RefValue.lean ====
/-
  The reference program's result as the network function.

  The reference is one line of host operations. It is read in four stretches: the stretch that builds the edge lists
  and the normalization; then, three times, a dense product (after the first layer: of the rectified features)
  followed by the spreading of its rows along the edges and the bias. Each stretch, run from any buffer contents,
  leaves the layer's function of those contents in the buffer the next stretch reads and keeps the edge lists, the
  normalization and the later arguments. Composing the four gives the result buffer after the whole line as the
  network function of the launch contents of the arguments.
-/
import proofs.«114519_j39926015983752_1_alg».proof.Proof.RefRun
import proofs.«114519_j39926015983752_1_alg».proof.Proof.Gen.KernelIdeal
import proofs.«114519_j39926015983752_1_alg».proof.Proof.Layers
import proofs.«114519_j39926015983752_1_alg».proof.Proof.DenseLaws
import proofs.«114519_j39926015983752_1_alg».proof.Proof.LibAfterAppend

noncomputable section

namespace Cert.Gcn.RefValue

open Cert.ReferenceIdeal Cert.ReferenceIdeal.Gen Cert.ReferenceIdeal.ValueP Cert.ReferenceIdeal.Facts₀
open Idealize.ShloMosaic Idealize.ShloMosaic.TcCoe Idealize.SL.Sem Idealize.ShloMosaic.StableHlo

variable {F : FTy → Type} [FloatOps F]

/-- The stretch that builds the edge lists and the normalization. -/
abbrev prep : List (HloOp τ sig (Elt F)) := ops.take 43
/-- The first layer and the rectifier after it. -/
abbrev layer1 : List (HloOp τ sig (Elt F)) := (ops.drop 43).take 27
/-- The second layer and the rectifier after it. -/
abbrev layer2 : List (HloOp τ sig (Elt F)) := (ops.drop 70).take 27
/-- The third layer. -/
abbrev layer3 : List (HloOp τ sig (Elt F)) := ops.drop 97

theorem ops_split : (ops : List (HloOp τ sig (Elt F))) = prep ++ layer1 ++ layer2 ++ layer3 := rfl

theorem after_ops (V : Valuation τ sig (Elt F)) :
    after ops V = after layer3 (after layer2 (after layer1 (after prep V))) := by
  rw [ops_split, Cert.Lib.AfterAppend.after_append, Cert.Lib.AfterAppend.after_append, Cert.Lib.AfterAppend.after_append]

/-! ## The first stretch -/

set_option maxHeartbeats 4000000 in
theorem prep_src (V : Valuation τ sig (Elt F)) :
    after (prep (F := F)) V (Proc.devRef .tc main_v3) = Cert.Gcn.srcIx (V (Proc.devRef .tc main_arg1)) := by
  simp only [prep, ops, List.take_succ_cons, List.take_zero, List.drop_succ_cons, List.drop_zero]
  after_results_simp
  rfl

set_option maxHeartbeats 4000000 in
theorem prep_dst (V : Valuation τ sig (Elt F)) :
    after (prep (F := F)) V (Proc.devRef .tc main_v6) = Cert.Gcn.dstIx (V (Proc.devRef .tc main_arg1)) := by
  simp only [prep, ops, List.take_succ_cons, List.take_zero, List.drop_succ_cons, List.drop_zero]
  after_results_simp
  rfl

set_option maxHeartbeats 4000000 in
theorem prep_norm (V : Valuation τ sig (Elt F)) :
    after (prep (F := F)) V (Proc.devRef .tc main_v31)
      = Cert.Gcn.edgeNorm (Cert.Gcn.srcIx (V (Proc.devRef .tc main_arg1))) (Cert.Gcn.dstIx (V (Proc.devRef .tc main_arg1))) := by
  simp only [prep, ops, List.take_succ_cons, List.take_zero, List.drop_succ_cons, List.drop_zero]
  after_results_simp
  rfl

set_option maxHeartbeats 4000000 in
/-- The first stretch writes no argument. -/
theorem prep_keeps (V : Valuation τ sig (Elt F)) :
    after (prep (F := F)) V (Proc.devRef .tc main_arg0) = V (Proc.devRef .tc main_arg0)
    ∧ after (prep (F := F)) V (Proc.devRef .tc main_arg2) = V (Proc.devRef .tc main_arg2)
    ∧ after (prep (F := F)) V (Proc.devRef .tc main_arg3) = V (Proc.devRef .tc main_arg3)
    ∧ after (prep (F := F)) V (Proc.devRef .tc main_arg4) = V (Proc.devRef .tc main_arg4)
    ∧ after (prep (F := F)) V (Proc.devRef .tc main_arg5) = V (Proc.devRef .tc main_arg5)
    ∧ after (prep (F := F)) V (Proc.devRef .tc main_arg6) = V (Proc.devRef .tc main_arg6)
    ∧ after (prep (F := F)) V (Proc.devRef .tc main_arg7) = V (Proc.devRef .tc main_arg7) := by
  refine ⟨?_, ?_, ?_, ?_, ?_, ?_, ?_⟩ <;> (simp only [prep, ops, List.take_succ_cons, List.take_zero, List.drop_succ_cons, List.drop_zero]; after_results_simp)

/-! ## The layers -/

set_option maxHeartbeats 4000000 in
/-- The first layer: the product of the features with the first weights, spread along the edges, plus the bias, then
    rectified. -/
theorem layer1_out (V : Valuation τ sig (Elt F)) :
    after (layer1 (F := F)) V (Proc.devRef .tc main_v53)
      = Cert.Gcn.hostLeaky (Cert.Gcn.spread64 (V (Proc.devRef .tc main_v3)) (V (Proc.devRef .tc main_v6)) (V (Proc.devRef .tc main_v31)) (V (Proc.devRef .tc main_arg3))
          (Host.dotGeneral dot_S50000x128_S128x64_S50000x64_1_0_0_1_n_n none (V (Proc.devRef .tc main_arg0)) (V (Proc.devRef .tc main_arg2)))) := by
  simp only [layer1, ops, List.take_succ_cons, List.take_zero, List.drop_succ_cons, List.drop_zero]
  after_results_simp
  rfl

set_option maxHeartbeats 4000000 in
/-- The first layer writes neither the edge lists, the normalization nor a later argument. -/
theorem layer1_keeps (V : Valuation τ sig (Elt F)) :
    after (layer1 (F := F)) V (Proc.devRef .tc main_v3) = V (Proc.devRef .tc main_v3)
    ∧ after (layer1 (F := F)) V (Proc.devRef .tc main_v6) = V (Proc.devRef .tc main_v6)
    ∧ after (layer1 (F := F)) V (Proc.devRef .tc main_v31) = V (Proc.devRef .tc main_v31)
    ∧ after (layer1 (F := F)) V (Proc.devRef .tc main_arg4) = V (Proc.devRef .tc main_arg4)
    ∧ after (layer1 (F := F)) V (Proc.devRef .tc main_arg5) = V (Proc.devRef .tc main_arg5)
    ∧ after (layer1 (F := F)) V (Proc.devRef .tc main_arg6) = V (Proc.devRef .tc main_arg6)
    ∧ after (layer1 (F := F)) V (Proc.devRef .tc main_arg7) = V (Proc.devRef .tc main_arg7) := by
  refine ⟨?_, ?_, ?_, ?_, ?_, ?_, ?_⟩ <;> (simp only [layer1, ops, List.take_succ_cons, List.take_zero, List.drop_succ_cons, List.drop_zero]; after_results_simp)

set_option maxHeartbeats 4000000 in
/-- The second layer, then rectified. -/
theorem layer2_out (V : Valuation τ sig (Elt F)) :
    after (layer2 (F := F)) V (Proc.devRef .tc main_v75)
      = Cert.Gcn.hostLeaky (Cert.Gcn.spread64 (V (Proc.devRef .tc main_v3)) (V (Proc.devRef .tc main_v6)) (V (Proc.devRef .tc main_v31)) (V (Proc.devRef .tc main_arg5))
          (Host.dotGeneral dot_S50000x64_S64x64_S50000x64_1_0_0_1_n_n none (V (Proc.devRef .tc main_v53)) (V (Proc.devRef .tc main_arg4)))) := by
  simp only [layer2, ops, List.take_succ_cons, List.take_zero, List.drop_succ_cons, List.drop_zero]
  after_results_simp
  rfl

set_option maxHeartbeats 4000000 in
/-- The second layer writes neither the edge lists, the normalization nor a later argument. -/
theorem layer2_keeps (V : Valuation τ sig (Elt F)) :
    after (layer2 (F := F)) V (Proc.devRef .tc main_v3) = V (Proc.devRef .tc main_v3)
    ∧ after (layer2 (F := F)) V (Proc.devRef .tc main_v6) = V (Proc.devRef .tc main_v6)
    ∧ after (layer2 (F := F)) V (Proc.devRef .tc main_v31) = V (Proc.devRef .tc main_v31)
    ∧ after (layer2 (F := F)) V (Proc.devRef .tc main_arg6) = V (Proc.devRef .tc main_arg6)
    ∧ after (layer2 (F := F)) V (Proc.devRef .tc main_arg7) = V (Proc.devRef .tc main_arg7) := by
  refine ⟨?_, ?_, ?_, ?_, ?_⟩ <;> (simp only [layer2, ops, List.take_succ_cons, List.take_zero, List.drop_succ_cons, List.drop_zero]; after_results_simp)

set_option maxHeartbeats 4000000 in
/-- The third layer: the reference's result. -/
theorem layer3_out (V : Valuation τ sig (Elt F)) :
    after (layer3 (F := F)) V (Proc.devRef .tc main_v91)
      = Cert.Gcn.spread1 (V (Proc.devRef .tc main_v3)) (V (Proc.devRef .tc main_v6)) (V (Proc.devRef .tc main_v31)) (V (Proc.devRef .tc main_arg7))
          (Host.dotGeneral dot_S50000x64_S64x1_S50000x1_1_0_0_1_n_n none (V (Proc.devRef .tc main_v75)) (V (Proc.devRef .tc main_arg6))) := by
  simp only [layer3, ops, List.take_succ_cons, List.take_zero, List.drop_succ_cons, List.drop_zero]
  after_results_simp
  rfl

/-! ## The whole line -/

set_option maxHeartbeats 16000000 in
/-- No operation of the line writes an argument. -/
theorem ops_keeps (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5)
    ∧ after (ops (F := F)) V (Proc.devRef .tc main_arg6) = V (Proc.devRef .tc main_arg6)
    ∧ after (ops (F := F)) V (Proc.devRef .tc main_arg7) = V (Proc.devRef .tc main_arg7) := by
  refine ⟨?_, ?_, ?_, ?_, ?_, ?_, ?_, ?_⟩ <;> (unfold ops; after_results_simp)

section Result

variable [Cert.KernelIdeal.Facts] (m : (ℓ : Loc nD τ sig) → Buf (Elt Ideal) ℓ) (c : Dev nD)

/-- The reference's result buffer after the whole line: the network function of the arguments as launched. -/
theorem result :
    after (ops (F := Ideal)) (launchContents m c) (Proc.devRef .tc main_v91)
      = Cert.Gcn.net (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  have e1 : ∀ (x : FVec Ideal S50000x128 .f32) (w : FVec Ideal S128x64 .f32),
      Host.dotGeneral dot_S50000x128_S128x64_S50000x64_1_0_0_1_n_n none x w = Cert.Gcn.dense x w :=
    fun x w => Cert.Gcn.dotGeneral_eq_dense Facts₀.dot_S50000x128_S128x64_S50000x64_1_0_0_1_n_n_wf x w
  have e2 : ∀ (x : FVec Ideal S50000x64 .f32) (w : FVec Ideal S64x64 .f32),
      Host.dotGeneral dot_S50000x64_S64x64_S50000x64_1_0_0_1_n_n none x w = Cert.Gcn.dense x w :=
    fun x w => Cert.Gcn.dotGeneral_eq_dense Facts₀.dot_S50000x64_S64x64_S50000x64_1_0_0_1_n_n_wf x w
  have e3 : ∀ (x : FVec Ideal S50000x64 .f32) (w : FVec Ideal S64x1 .f32),
      Host.dotGeneral dot_S50000x64_S64x1_S50000x1_1_0_0_1_n_n none x w = Cert.Gcn.dense x w :=
    fun x w => Cert.Gcn.dotGeneral_eq_dense Facts₀.dot_S50000x64_S64x1_S50000x1_1_0_0_1_n_n_wf x w
  obtain ⟨p0, p2, p3, p4, p5, p6, p7⟩ := prep_keeps (F := Ideal) (launchContents m c)
  obtain ⟨j3, j6, j31, j4, j5, j6a, j7⟩ := layer1_keeps (F := Ideal) (after prep (launchContents m c))
  obtain ⟨k3, k6, k31, k6a, k7⟩ := layer2_keeps (F := Ideal) (after layer1 (after prep (launchContents m c)))
  rw [after_ops]
  refine (layer3_out (F := Ideal) (after layer2 (after layer1 (after prep (launchContents m c))))).trans ?_
  rw [k3, k6, k31, k7, k6a, layer2_out (F := Ideal) (after layer1 (after prep (launchContents m c))), j3, j6, j31, j7, j6a, j5, j4, layer1_out (F := Ideal) (after prep (launchContents m c)),
    prep_src (F := Ideal) (launchContents m c), prep_dst (F := Ideal) (launchContents m c), prep_norm (F := Ideal) (launchContents m c), p0, p2, p3, p4, p5, p6, p7,
    e1, e2, e3, Cert.Gcn.hostLeaky_eq, Cert.Gcn.hostLeaky_eq]
  rfl

end Result

end Cert.Gcn.RefValue

end
-- ==== Proof.lean ====
/-
  A three-layer graph convolution network: the kernel's program against the reference, over the extended reals.

  Both programs build the same edge lists (the given edges plus one self-loop per node) and the same symmetric
  normalization from the edge input, and both run three layers "dense product, spread along the edges, add the bias"
  with the leaky rectifier between layers. They differ in who computes the dense product: the reference asks the host
  for one general contraction of the whole arrays (rectifying the features first, with host operations); the kernel's
  program launches, per layer, a pipelined kernel that takes 5000 rows of the features at a time, rectifies them
  itself (in the second and third layer), rounds them and the weights to a shorter float format and multiplies them
  on the matrix unit into a zero accumulator. At the exact values a change of float format is the identity and both
  products are the same sums, block by block; the blocks tile the rows; so the two results are one function of the
  arguments (Proof/Layers.lean's net). The gathers and scatter-adds are the same operations of the same values on both
  sides and are never opened; no law of the extended reals beyond the sums being literally the same sums is used, so
  the finiteness of the inputs is not needed.

  The ideal pass rewrote nothing, so the kernel's idealization is its own text read at the exact values.
-/
import proofs.«114519_j39926015983752_1_alg».proof.Defs
import proofs.«114519_j39926015983752_1_alg».proof.Proof.Gen.Kernel
import proofs.«114519_j39926015983752_1_alg».proof.Proof.Gen.Kernel.Skeleton
import proofs.«114519_j39926015983752_1_alg».proof.Proof.Gen.Kernel.Launch
import proofs.«114519_j39926015983752_1_alg».proof.Proof.Gen.Kernel.Points
import proofs.«114519_j39926015983752_1_alg».proof.Proof.Gen.Kernel.Frame
import proofs.«114519_j39926015983752_1_alg».proof.Proof.Gen.KernelIdeal
import proofs.«114519_j39926015983752_1_alg».proof.Proof.Gen.KernelIdeal.Skeleton
import proofs.«114519_j39926015983752_1_alg».proof.Proof.Gen.KernelIdeal.Launch
import proofs.«114519_j39926015983752_1_alg».proof.Proof.Gen.KernelIdeal.Points
import proofs.«114519_j39926015983752_1_alg».proof.Proof.Gen.KernelIdeal.Frame
import proofs.«114519_j39926015983752_1_alg».proof.Proof.Gen.ReferenceIdeal
import proofs.«114519_j39926015983752_1_alg».proof.Proof.Gen.Pre_finite_inputs
import proofs.«114519_j39926015983752_1_alg».proof.Proof.KernelRun
import proofs.«114519_j39926015983752_1_alg».proof.Proof.KernelValue
import proofs.«114519_j39926015983752_1_alg».proof.Proof.RefRun
import proofs.«114519_j39926015983752_1_alg».proof.Proof.RefValue
import Idealize.ShloMosaic.Adequacy
import Idealize.ShloMosaic.Init

noncomputable section

namespace Cert.Proof

open Idealize.ShloMosaic Idealize.SL.Sem

/-- The kernel's program as printed runs and keeps its arguments. -/
theorem frame_k : Cert.frame_Kernel := fun m ρ _ => Cert.Kernel.Gen.frame m ρ

/-- So does its reading at the exact values. -/
theorem frame_ki : Cert.frame_KernelIdeal := fun m ρ _ => Cert.KernelIdeal.Gen.frame m ρ

/-- The reference is one line of host operations, none of which writes an argument. -/
theorem frame_ri : Cert.frame_ReferenceIdeal := fun m ρ _ =>
  (θ_run Cert.ReferenceIdeal.defs _ _).mono (fun _ h c => by
    obtain ⟨k0, k1, k2, k3, k4, k5, k6, k7⟩ := Cert.Gcn.RefValue.ops_keeps (F := Ideal) (StableHlo.launchContents m c)
    exact ⟨(h c _).trans k0, (h c _).trans k1, (h c _).trans k2, (h c _).trans k3, (h c _).trans k4, (h c _).trans k5,
      (h c _).trans k6, (h c _).trans k7⟩)
    (Cert.ReferenceIdeal.ValueP.run_fold (F := Ideal) m ρ)

/-- Nothing was rewritten by the ideal pass. -/
theorem preserves : Cert.preserves_Kernel_KernelIdeal := trivial

/-- Both programs end with the network function of the arguments in their result buffer. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Gcn.KernelValue.result m ρ c), (h c).2⟩)
      (Cert.Gcn.KernelRun.run_fold (F := Ideal) m ρ)
  · refine (θ_run Cert.ReferenceIdeal.defs _ _).mono (fun r h c => ?_) (Cert.ReferenceIdeal.ValueP.run_fold (F := Ideal) m' ρ')
    obtain ⟨k0, k1, k2, k3, k4, k5, k6, k7⟩ := Cert.Gcn.RefValue.ops_keeps (F := Ideal) (StableHlo.launchContents m' c)
    obtain ⟨g0, g1, g2, g3, g4, g5, g6, g7⟩ := hagree c
    refine ⟨(h c _).trans ((Cert.Gcn.RefValue.result m' c).trans ?_), (h c _).trans k0, (h c _).trans k1, (h c _).trans k2,
      (h c _).trans k3, (h c _).trans k4, (h c _).trans k5, (h c _).trans k6, (h c _).trans k7⟩
    rw [g0, g1, g2, g3, g4, g5, g6, g7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
